-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x32 .f32) (main_arg1 : FVec F S16384x16384 .f32) (main_arg2 : IVec S16384x16384 32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  main_v8
-- ==== Kernel.lean ====
abbrev S16384x32 : Shape := ⟨2, ![16384, 32]⟩
abbrev S16384x16384 : Shape := ⟨2, ![16384, 16384]⟩
abbrev S1024x2048 : Shape := ⟨2, ![1024, 2048]⟩
abbrev S2048x32 : Shape := ⟨2, ![2048, 32]⟩
abbrev S1024x32 : Shape := ⟨2, ![1024, 32]⟩
abbrev S128x2048 : Shape := ⟨2, ![128, 2048]⟩
abbrev S128x32 : Shape := ⟨2, ![128, 32]⟩

abbrev nBuf : Space → Nat
  | .hbm => 4
  | .vmem => 9
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .i32⟩
  | .hbm, ⟨3, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .i32⟩
  | .local _ .vmem, ⟨3, _⟩ => ⟨S1024x2048, .i32⟩
  | .local _ .vmem, ⟨4, _⟩ => ⟨S2048x32, .f32⟩
  | .local _ .vmem, ⟨5, _⟩ => ⟨S2048x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_2 : BitVec 32 := 0#32
  let c8_i32 : BitVec 32 := 8#32
  let v5 : BitVec 32 := Scalar.addi c0_i32_2 c8_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c128_i32 : BitVec 32 := 128#32
  let v9 : BitVec 32 := Scalar.muli arg7 c128_i32
  v9
def k0_off1 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c128_i32 : BitVec 32 := 128#32
  let v9 : BitVec 32 := Scalar.muli arg7 c128_i32
  let v10 : BitVec 32 := v9
  let v11 : Index := Scalar.indexCast v10
  let c0_5 : Index := 0#32
  ![v11.toNat, 0]
def k0_off2 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c128_i32 : BitVec 32 := 128#32
  let v9 : BitVec 32 := Scalar.muli arg7 c128_i32
  let v10 : BitVec 32 := v9
  let v24 : Index := Scalar.indexCast v10
  let c0_10 : Index := 0#32
  ![v24.toNat, 0]
def k0_cond2 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x32_S2048x32_0_0 : ∀ a, (![0, 0] : Fin 2 → Nat) a + S2048x32.size a ≤ S2048x32.size a
  h_S2048x32 : 0 < S2048x32.numel
  bitsLt_bf16_f32 : FTy.bits .bf16 < FTy.bits .f32
  h_S128x2048 : 0 < S128x2048.numel
  h_S128x32 : 0 < S128x32.numel
  shapeCasts_S128x32_S128x32 : S128x32.ShapeCasts S128x32
  dot_S128x2048_S2048x32_S128x32_1_0_0_1_n_n_wf : DotDims.WF S128x2048 S2048x32 S128x32 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x2048.size a ≤ S1024x2048.size a
  k0_off2_inb : ∀ k0_t1 : Fin k0_t1_loop.trips, ∀ a, (k0_off2 k0_t1) a + S128x32.size a ≤ S1024x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .i32 = 32 ∨ (Rect.block (s := S16384x16384) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S16384x32.size a
  hwx0_3 : ∀ i : grid0.Coords, EltTy.bits .f32 = 32 ∨ (Rect.block (s := S16384x32) S1024x32.size (cc0_transform_3 i) (hinb0_3 i)).WholeWords (EltTy.packing .f32)

variable [Facts₀]

def dot_S128x2048_S2048x32_S128x32_1_0_0_1_n_n : DotDims S128x2048 S2048x32 S128x32 where
  lhsContracting := [1]
  rhsContracting := [0]
  lhsNonContracting := [0]
  rhsNonContracting := [1]
  lhsBatch := []
  rhsBatch := []
  wf := dot_S128x2048_S2048x32_S128x32_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .i32⟩
  | .hbm, ⟨3, _⟩ => ⟨S_, .i32⟩
  | .hbm, ⟨4, _⟩ => ⟨S16384x16384, .i32⟩
  | .hbm, ⟨5, _⟩ => ⟨S16384x16384, .i1⟩
  | .hbm, ⟨6, _⟩ => ⟨S_, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  dot_S16384x16384_S16384x32_S16384x32_1_0_0_1_n_n_wf : DotDims.WF S16384x16384 S16384x32 S16384x32 [1] [0] [0] [1] [] []

variable [Facts₀]

def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.ChunkLoop.lean ====
/-
  The body's counted loop, read back.

  The loop walks the 1024 rows of the accumulator in eight chunks of 128 rows. Trip `k` loads rows
  `[128k, 128k + 128)` of the coefficient block, of the mask block and of the accumulator, and stores one function of
  them (the payload) back into the same accumulator rows. Distinct trips touch disjoint rows, so the accumulator rows a
  trip loads are still the ones the loop found there, and after all trips row `128k + p` holds trip `k`'s payload of
  the contents at loop entry. Nothing here depends on what the payload computes, nor on the float instance.
-/
import proofs.«141321_j15899968930166_2_alg».proof.Proof.Gen.KernelIdeal.Loops
import Idealize.ShloMosaic.Lib.WritesUnit
import Idealize.ShloMosaic.Lib.ValueIdx
import Idealize.ShloMosaic.Lib.Pipeline.FrameBody

set_option maxRecDepth 16384

noncomputable section

namespace Cert.KernelIdeal.ChunkLoop

open Cert.KernelIdeal Cert.KernelIdeal.Gen Idealize.ShloMosaic Idealize.ShloMosaic.TcCoe Idealize.ShloMosaic.ValueIdx Idealize.SL.Sem

variable {F : FTy → Type} [FloatOps F]

/-- The loop makes eight trips. -/
theorem trips_eq : k0_t1_loop.trips = 8 := by decide +kernel

/-- Rows `[128k, 128k + 128)` of a 1024-row, 2048-column block. -/
abbrev wideRows (k : Fin k0_t1_loop.trips) : Rect S1024x2048 := Rect.unit (s := S1024x2048) (k0_off1 k) S128x2048.size (k0_off1_inb k)
/-- Rows `[128k, 128k + 128)` of the 1024-row, 32-column accumulator. -/
abbrev accRows (k : Fin k0_t1_loop.trips) : Rect S1024x32 := Rect.unit (s := S1024x32) (k0_off2 k) S128x32.size (k0_off2_inb k)

/-- What trip `k` stores, as a function of the right-hand block `v3`, the coefficient block `A`, the mask block `B` and
    the accumulator `g` as the loop found it. -/
def chunkOut (v3 : Vec F S2048x32 .f32) (A : S1024x2048.Idx → Elt F .f32) (B : S1024x2048.Idx → Elt F .i32)
    (g : S1024x32.Idx → Elt F .f32) (k : Fin k0_t1_loop.trips) : S128x32.Idx → Elt F .f32 :=
  k0_pay2 v3 (View.ld A (wideRows k)) (View.ld B (wideRows k)) (View.ld g (accRows k))

/-- The one piece a trip writes: its payload of the rows it loads, through the accumulator rows of the trip. -/
theorem tripL_eq (𝒱 : Variants) (c : Dev nD) (bd : Option 𝒱.V) (i : grid0.Coords) (arg2 : Memref sig .tc .vmem S1024x2048 .f32) (harg2 : arg2.IsWhole) (arg3 : Memref sig .tc .vmem S1024x2048 .i32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x32 .f32) (harg6 : arg6.IsWhole) (v3 : Vec F S2048x32 .f32) (X2 : BufTy.Contents (Elt F) arg2.view.ty) (X3 : BufTy.Contents (Elt F) arg3.view.ty) (k : Fin k0_t1_loop.trips) (f : BufTy.Contents (Elt F) arg6.view.ty) :
    tripL_k0_t1 (F := F) 𝒱 c bd i arg2 harg2 arg3 harg3 arg4 harg4 arg5 harg5 arg6 harg6 v3 X2 X3 k f
      = [⟨accRows k, k0_pay2 v3 (View.ld (arg2.view.read (Elt F) X2) (wideRows k)) (View.ld (arg3.view.read (Elt F) X3) (wideRows k))
          (View.ld (arg6.view.read (Elt F) f) (accRows k))⟩] := by
  unfold tripL_k0_t1 trip_k0_t1
  rfl

variable (𝒱 : Variants) (c : Dev nD) (bd : Option 𝒱.V) (i : grid0.Coords) (arg2 : Memref sig .tc .vmem S1024x2048 .f32) (harg2 : arg2.IsWhole) (arg3 : Memref sig .tc .vmem S1024x2048 .i32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x32 .f32) (harg6 : arg6.IsWhole) (v3 : Vec F S2048x32 .f32) (X2 : BufTy.Contents (Elt F) arg2.view.ty) (X3 : BufTy.Contents (Elt F) arg3.view.ty) (G : BufTy.Contents (Elt F) arg6.view.ty)

/-- The pieces after one more trip: the new trip's piece in front. -/
theorem pb_succ (k : Fin k0_t1_loop.trips) :
    pb_k0_t1 (F := F) 𝒱 c bd i arg2 harg2 arg3 harg3 arg4 harg4 arg5 harg5 arg6 harg6 v3 X2 X3 G (k.val + 1)
      = ⟨accRows k, k0_pay2 v3 (View.ld (arg2.view.read (Elt F) X2) (wideRows k)) (View.ld (arg3.view.read (Elt F) X3) (wideRows k))
          (View.ld (arg6.view.read (Elt F) (arg6.view.writes (Elt F) G (pb_k0_t1 (F := F) 𝒱 c bd i arg2 harg2 arg3 harg3 arg4 harg4 arg5 harg5 arg6 harg6 v3 X2 X3 G k.val))) (accRows k))⟩
        :: pb_k0_t1 (F := F) 𝒱 c bd i arg2 harg2 arg3 harg3 arg4 harg4 arg5 harg5 arg6 harg6 v3 X2 X3 G k.val := by
  rw [pb_k0_t1_succ, tripL_eq]
  rfl

/-- Rows the first `n` trips have not reached still hold what the loop found. -/
theorem read_pb_of_ge (n : ℕ) (hn : n ≤ k0_t1_loop.trips) (y : S1024x32.Idx) (hy : 128 * n ≤ (y 0).val) :
    arg6.view.read (Elt F) (arg6.view.writes (Elt F) G (pb_k0_t1 (F := F) 𝒱 c bd i arg2 harg2 arg3 harg3 arg4 harg4 arg5 harg5 arg6 harg6 v3 X2 X3 G n)) y = arg6.view.read (Elt F) G y := by
  induction n with
  | zero => rfl
  | succ n ih =>
    have e := pb_succ 𝒱 c bd i arg2 harg2 arg3 harg3 arg4 harg4 arg5 harg5 arg6 harg6 v3 X2 X3 G ⟨n, hn⟩
    rw [show (⟨n, hn⟩ : Fin k0_t1_loop.trips).val + 1 = n + 1 from rfl] at e
    rw [e, View.read_writes_cons_rows_of_not_mem arg6.view G (k0_off2_inb ⟨n, hn⟩) _ _ y (k0_off2_eq ⟨n, hn⟩) rfl
      (Or.inr (by show 128 * n + 128 ≤ (y 0).val; omega))]
    exact ih (Nat.le_of_succ_le hn) (by omega)

/-- Row `128k + p`, once trip `k` has run, holds that trip's payload of the contents at loop entry. -/
theorem read_pb_of_lt (n : ℕ) (hn : n ≤ k0_t1_loop.trips) (k : Fin k0_t1_loop.trips) (hk : k.val < n) (p : Fin 128) (q : Fin 32)
    (y : S1024x32.Idx) (hy0 : (y 0).val = 128 * k.val + p.val) (hy1 : (y 1).val = q.val) :
    arg6.view.read (Elt F) (arg6.view.writes (Elt F) G (pb_k0_t1 (F := F) 𝒱 c bd i arg2 harg2 arg3 harg3 arg4 harg4 arg5 harg5 arg6 harg6 v3 X2 X3 G n)) y
      = chunkOut v3 (arg2.view.read (Elt F) X2) (arg3.view.read (Elt F) X3) (arg6.view.read (Elt F) G) k (ix2 p q) := by
  induction n with
  | zero => exact absurd hk (Nat.not_lt_zero _)
  | succ n ih =>
    have e := pb_succ 𝒱 c bd i arg2 harg2 arg3 harg3 arg4 harg4 arg5 harg5 arg6 harg6 v3 X2 X3 G ⟨n, hn⟩
    rw [show (⟨n, hn⟩ : Fin k0_t1_loop.trips).val + 1 = n + 1 from rfl] at e
    rw [e]
    by_cases hkn : k.val = n
    · obtain rfl : k = ⟨n, hn⟩ := Fin.ext hkn
      rw [View.read_writes_cons_rows_of_mem arg6.view G (k0_off2_inb ⟨n, hn⟩) _ _ y (ix2 p q) (k0_off2_eq ⟨n, hn⟩) hy0 hy1]
      unfold chunkOut
      refine congrArg (fun g => k0_pay2 v3 _ _ g (ix2 p q)) (funext fun x => ?_)
      refine read_pb_of_ge 𝒱 c bd i arg2 harg2 arg3 harg3 arg4 harg4 arg5 harg5 arg6 harg6 v3 X2 X3 G n (Nat.le_of_succ_le hn) _ ?_
      show 128 * n ≤ ((accRows (⟨n, hn⟩ : Fin k0_t1_loop.trips)).idx x 0).val
      show 128 * n ≤ (k0_off2 (⟨n, hn⟩ : Fin k0_t1_loop.trips)) 0 + 1 * (x 0).val
      rw [k0_off2_eq]
      show 128 * n ≤ 128 * n + 1 * (x 0).val
      omega
    · rw [View.read_writes_cons_rows_of_not_mem arg6.view G (k0_off2_inb ⟨n, hn⟩) _ _ y (k0_off2_eq ⟨n, hn⟩) rfl
        (Or.inl (by show (y 0).val < 128 * n; have := p.isLt; omega))]
      exact ih (Nat.le_of_succ_le hn) (by omega)

end Cert.KernelIdeal.ChunkLoop

end
-- ==== Proof.Spec.lean ====
/-
  The function both programs compute, and the one law that joins their two arrangements of it.

  Entry `(i, d)` of the result is the sum over `j < 16384` of `gate (coef (i, j)) (knn (i, j)) · z (j, d)`, where the
  gate keeps a coefficient that is positive and whose mask word is positive, and is zero otherwise. One program takes
  the sum over `j` in one go. The other cuts the columns `j` into eight blocks of 2048, sums each block, and adds the
  block sums one after the other onto a running total that starts at zero. Addition of extended reals is commutative
  and associative (also at the infinities), so regrouping a finite sum into consecutive blocks changes nothing: no
  finiteness of the inputs is needed.
-/
import Idealize.ShloMosaic.PureOps.Ideal
import Idealize.ShloMosaic.Lib.ValueIdx

noncomputable section

open scoped BigOperators

namespace Cert.MaskedProduct

open Idealize.ShloMosaic Idealize.ShloMosaic.ValueIdx

/-! ## The gate -/

/-- The gated coefficient, spelt with one fused condition: `x` when the mask word is positive and `x` is positive,
    else zero. -/
def gate (x : EReal) (n : BitVec 32) : EReal :=
  Scalar.select (IntOp.andi (IntOp.cmpi .sgt n 0#32) (Ideal.cmp .ogt x 0)) x 0

/-- The same coefficient spelt in two steps: mask first (`x` when the mask word is positive, else zero), then the
    larger of that and zero. -/
def gateTwoStep (x : EReal) (n : BitVec 32) : EReal :=
  max (Scalar.select (IntOp.cmpi .sgt n 0#32) x 0) 0

private theorem and_eq_one {c d : BitVec 1} : IntOp.andi c d = 1 ↔ c = 1 ∧ d = 1 := by
  revert c d; decide

private theorem ogt_zero_iff (x : EReal) : Ideal.cmp .ogt x 0 = 1 ↔ 0 < x := by
  unfold Ideal.cmp
  by_cases h : 0 < x
  · simp [h]
  · simp [h]

/-- The two spellings agree: masked out, both are zero; kept, `max x 0` is `x` when `x` is positive and zero when not. -/
theorem gate_eq_twoStep (x : EReal) (n : BitVec 32) : gate x n = gateTwoStep x n := by
  unfold gate gateTwoStep Scalar.select
  by_cases hn : IntOp.cmpi .sgt n 0#32 = 1
  · by_cases hx : 0 < x
    · rw [if_pos (and_eq_one.mpr ⟨hn, (ogt_zero_iff x).mpr hx⟩), if_pos hn, max_eq_left hx.le]
    · rw [if_neg (fun h => hx ((ogt_zero_iff x).mp (and_eq_one.mp h).2)), if_pos hn, max_eq_right (not_lt.mp hx)]
  · rw [if_neg (fun h => hn (and_eq_one.mp h).1), if_neg hn, max_self]

/-! ## Rows and columns by block -/

/-- Row `r` of row block `I` (1024 rows to a block). -/
def rowOf (I : ℕ) (r : Fin 1024) : Fin 16384 := ⟨(1024 * I + r.val) % 16384, Nat.mod_lt _ (by norm_num)⟩
/-- Column `j` of column block `k` (2048 columns to a block). -/
def colOf (k : ℕ) (j : Fin 2048) : Fin 16384 := ⟨(2048 * k + j.val) % 16384, Nat.mod_lt _ (by norm_num)⟩

theorem rowOf_val (I : ℕ) (hI : I < 16) (r : Fin 1024) : (rowOf I r).val = 1024 * I + r.val := by
  show (1024 * I + r.val) % 16384 = _
  have := r.isLt
  omega
theorem colOf_val (k : ℕ) (hk : k < 8) (j : Fin 2048) : (colOf k j).val = 2048 * k + j.val := by
  show (2048 * k + j.val) % 16384 = _
  have := j.isLt
  omega

/-- A sum over the 16384 columns is the sum over the eight column blocks of the sums within each block. -/
theorem sum_by_blocks {M : Type*} [AddCommMonoid M] (f : Fin 16384 → M) :
    ∑ j, f j = ∑ k ∈ Finset.range 8, ∑ j' : Fin 2048, f (colOf k j') := by
  rw [Finset.sum_range (fun k => ∑ j' : Fin 2048, f (colOf k j'))]
  rw [← Equiv.sum_comp (finProdFinEquiv.trans (finCongr (by norm_num : 8 * 2048 = 16384))) f, Fintype.sum_prod_type]
  refine Finset.sum_congr rfl fun a _ => Finset.sum_congr rfl fun b _ => congrArg f (Fin.ext ?_)
  show b.val + 2048 * a.val = (2048 * a.val + b.val) % 16384
  have := a.isLt
  have := b.isLt
  omega

/-! ## The result, whole and by blocks -/

section
variable (coef : (⟨2, ![16384, 16384]⟩ : Shape).Idx → EReal) (knn : (⟨2, ![16384, 16384]⟩ : Shape).Idx → BitVec 32)
  (z : (⟨2, ![16384, 32]⟩ : Shape).Idx → EReal)

/-- THE RESULT: entry `(i, d)` is the gated coefficients of row `i` against column `d` of `z`. -/
def result : (⟨2, ![16384, 32]⟩ : Shape).Idx → EReal :=
  fun y => ∑ j : Fin 16384, gate (coef (ix2 (y 0) j)) (knn (ix2 (y 0) j)) * z (ix2 j (y 1))

/-- The result at `(p, q)`. -/
theorem result_apply (p : Fin 16384) (q : Fin 32) :
    result coef knn z (ix2 p q) = ∑ j : Fin 16384, gate (coef (ix2 p j)) (knn (ix2 p j)) * z (ix2 j q) := rfl

/-- Column block `k`'s share of entry `(row r of row block I, d)`. -/
def blockTerm (I k : ℕ) (r : Fin 1024) (d : Fin 32) : EReal :=
  ∑ j : Fin 2048, gate (coef (ix2 (rowOf I r) (colOf k j))) (knn (ix2 (rowOf I r) (colOf k j))) * z (ix2 (colOf k j) d)

/-- The running total after column blocks `0 … k`. -/
def upTo (I k : ℕ) (r : Fin 1024) (d : Fin 32) : EReal :=
  ∑ k' ∈ Finset.range (k + 1), blockTerm coef knn z I k' r d

theorem upTo_zero (I : ℕ) (r : Fin 1024) (d : Fin 32) : upTo coef knn z I 0 r d = blockTerm coef knn z I 0 r d := by
  unfold upTo
  rw [Finset.sum_range_one]

theorem upTo_succ (I k : ℕ) (r : Fin 1024) (d : Fin 32) :
    upTo coef knn z I (k + 1) r d = upTo coef knn z I k r d + blockTerm coef knn z I (k + 1) r d := by
  unfold upTo
  rw [Finset.sum_range_succ]

/-- After the last column block the running total is the result's entry. -/
theorem upTo_last (I : ℕ) (r : Fin 1024) (d : Fin 32) : upTo coef knn z I 7 r d = result coef knn z (ix2 (rowOf I r) d) := by
  unfold upTo result blockTerm
  exact (sum_by_blocks fun j => gate (coef (ix2 (rowOf I r) j)) (knn (ix2 (rowOf I r) j)) * z (ix2 j d)).symm

end

attribute [irreducible] result

end Cert.MaskedProduct

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.PointStep.lean ====
/-
  One grid point's update of the accumulator, at the exact instance.

  At a grid point the body holds a 1024 × 2048 block `x0` of the coefficients, the same block `x1` of the mask, a
  2048 × 32 block `x2` of `z`, and the 1024 × 32 accumulator. Its loop replaces accumulator entry `(r, d)` by
  `acc (r, d) + ∑ j < 2048, gate (x0 (r, j)) (x1 (r, j)) · x2 (j, d)`: the matrix unit's product of the gated block with
  the block of `z`, into zeros, added to what the accumulator held (the narrowing of the two operands to a shorter
  format is the identity on exact values). At a row block's first point the accumulator is first filled with zeros; at
  its last point the updated accumulator is also copied to the output block.
-/
import proofs.«141321_j15899968930166_2_alg».proof.Proof.Gen.KernelIdeal.Frame
import proofs.«141321_j15899968930166_2_alg».proof.Proof.ChunkLoop
import proofs.«141321_j15899968930166_2_alg».proof.Proof.Spec
import proofs.«141321_j15899968930166_2_alg».proof.Proof.LibMatOps
import Idealize.ShloMosaic.Lib.Tactic
import Idealize.ShloMosaic.Lib.Pipeline.Value
import Idealize.ShloMosaic.PureOps.Ideal.Laws

set_option maxRecDepth 16384

noncomputable section

open scoped BigOperators

namespace Cert.KernelIdeal.PointStep

open Cert.KernelIdeal Cert.KernelIdeal.Gen Cert.KernelIdeal.ChunkLoop Cert.MaskedProduct
open Idealize.ShloMosaic Idealize.ShloMosaic.TcCoe Idealize.ShloMosaic.ValueIdx Idealize.ShloMosaic.Tactic Idealize.SL.Sem

/-- The accumulator after one grid point, from the accumulator before it and the point's three blocks. -/
def stepOut (acc : S1024x32.Idx → EReal) (x0 : S1024x2048.Idx → EReal) (x1 : S1024x2048.Idx → BitVec 32)
    (x2 : S2048x32.Idx → EReal) : S1024x32.Idx → EReal :=
  fun y => acc y + ∑ j : Fin 2048, gate (x0 (ix2 (y 0) j)) (x1 (ix2 (y 0) j)) * x2 (ix2 j (y 1))

/-- Row `p` of chunk `k`, as a row of the 1024-row block. -/
def chunkRow (k : Fin k0_t1_loop.trips) (p : Fin 128) : Fin 1024 :=
  ⟨128 * k.val + p.val, by have h1 : k.val < 8 := lt_of_lt_of_eq k.isLt trips_eq; have h2 := p.isLt; omega⟩

theorem wideRows_idx (k : Fin k0_t1_loop.trips) (p : Fin 128) (j : Fin 2048) :
    (wideRows k).idx (ix2 p j) = ix2 (chunkRow k p) j := by
  funext a
  refine Fin.ext ?_
  have e0 := congrFun (k0_off1_eq k) 0
  have e1 := congrFun (k0_off1_eq k) 1
  match a with
  | ⟨0, _⟩ =>
    show k0_off1 k 0 + 1 * p.val = 128 * k.val + p.val
    rw [e0]; show 128 * k.val + 1 * p.val = _; omega
  | ⟨1, _⟩ =>
    show k0_off1 k 1 + 1 * j.val = j.val
    rw [e1]; show 0 + 1 * j.val = _; omega

theorem accRows_idx (k : Fin k0_t1_loop.trips) (p : Fin 128) (q : Fin 32) :
    (accRows k).idx (ix2 p q) = ix2 (chunkRow k p) q := by
  funext a
  refine Fin.ext ?_
  have e0 := congrFun (k0_off2_eq k) 0
  have e1 := congrFun (k0_off2_eq k) 1
  match a with
  | ⟨0, _⟩ =>
    show k0_off2 k 0 + 1 * p.val = 128 * k.val + p.val
    rw [e0]; show 128 * k.val + 1 * p.val = _; omega
  | ⟨1, _⟩ =>
    show k0_off2 k 1 + 1 * q.val = q.val
    rw [e1]; show 0 + 1 * q.val = _; omega

/-- A trip's payload at `(p, q)`: the accumulator's entry plus the gated row against column `q`. -/
theorem chunkOut_apply (v3 : Vec Ideal S2048x32 .f32) (A : S1024x2048.Idx → EReal) (B : S1024x2048.Idx → BitVec 32)
    (g : S1024x32.Idx → EReal) (k : Fin k0_t1_loop.trips) (p : Fin 128) (q : Fin 32) :
    chunkOut (F := Ideal) v3 A B g k (ix2 p q)
      = g (ix2 (chunkRow k p) q) + ∑ j : Fin 2048, gate (A (ix2 (chunkRow k p) j)) (B (ix2 (chunkRow k p) j)) * v3 (ix2 j q) := by
  unfold chunkOut k0_pay2
  rw [shapeCast_self, addf_apply]
  refine congrArg₂ (· + ·) ?_ ?_
  · show g ((accRows k).idx (ix2 p q)) = _
    rw [accRows_idx]
  · refine (Cert.MatOps.matmul_plain_apply dot_S128x2048_S2048x32_S128x32_1_0_0_1_n_n_wf none _ _ p q).trans ?_
    refine Finset.sum_congr rfl fun j _ => ?_
    show Scalar.select (IntOp.andi (IntOp.cmpi .sgt (B ((wideRows k).idx (ix2 p j))) 0#32)
        (Ideal.cmp .ogt (A ((wideRows k).idx (ix2 p j))) (Ideal.ofBits .f32 0x00000000#32)))
        (A ((wideRows k).idx (ix2 p j))) (Ideal.ofBits .f32 0x00000000#32) * v3 (ix2 j q) = _
    rw [wideRows_idx, Ideal.ofBits_zero_f32]
    rfl

section Loop
variable (𝒱 : Variants) (c : Dev nD) (bd : Option 𝒱.V) (i : grid0.Coords) (arg2 : Memref sig .tc .vmem S1024x2048 .f32) (harg2 : arg2.IsWhole) (arg3 : Memref sig .tc .vmem S1024x2048 .i32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x32 .f32) (harg6 : arg6.IsWhole) (v3 : Vec Ideal S2048x32 .f32) (X2 : BufTy.Contents (Elt Ideal) arg2.view.ty) (X3 : BufTy.Contents (Elt Ideal) arg3.view.ty) (G : BufTy.Contents (Elt Ideal) arg6.view.ty)

/-- After the loop's eight trips the accumulator holds one update of what the loop found in it. -/
theorem read_loop (r : Fin 1024) (q : Fin 32) :
    arg6.view.read (Elt Ideal) (arg6.view.writes (Elt Ideal) G (pb_k0_t1 (F := Ideal) 𝒱 c bd i arg2 harg2 arg3 harg3 arg4 harg4 arg5 harg5 arg6 harg6 v3 X2 X3 G k0_t1_loop.trips)) (ix2 r q)
      = stepOut (arg6.view.read (Elt Ideal) G) (arg2.view.read (Elt Ideal) X2) (arg3.view.read (Elt Ideal) X3) v3 (ix2 r q) := by
  have hr : r.val < 1024 := r.isLt
  have hk : r.val / 128 < k0_t1_loop.trips := by rw [trips_eq]; omega
  have hrow : chunkRow ⟨r.val / 128, hk⟩ ⟨r.val % 128, Nat.mod_lt _ (by norm_num)⟩ = r := Fin.ext (by
    show 128 * (r.val / 128) + r.val % 128 = r.val
    omega)
  rw [read_pb_of_lt 𝒱 c bd i arg2 harg2 arg3 harg3 arg4 harg4 arg5 harg5 arg6 harg6 v3 X2 X3 G k0_t1_loop.trips le_rfl ⟨r.val / 128, hk⟩ hk ⟨r.val % 128, Nat.mod_lt _ (by norm_num)⟩ q (ix2 r q)
    (by show r.val = 128 * (r.val / 128) + r.val % 128; omega) rfl, chunkOut_apply, hrow]
  rfl

end Loop

end Cert.KernelIdeal.PointStep

end
-- ==== Proof.PointCases.lean ====
/-
  What each of the body's three control cases leaves, as one accumulator update.

  The body runs in one of three ways. At the first column block of a row block (case A) it fills the accumulator with
  zeros and then runs the loop; at a middle column block (case B) it runs the loop on the accumulator the point before
  left; at the last column block (case C) it does the same and then copies the accumulator to the output block. So the
  accumulator after a point is always one update (`stepOut`) — of zeros in case A, of the previous accumulator in
  cases B and C — and in case C the output block is that same updated accumulator.
-/
import proofs.«141321_j15899968930166_2_alg».proof.Proof.PointStep

set_option maxRecDepth 16384

noncomputable section

open scoped BigOperators

namespace Cert.KernelIdeal.PointCases

open Cert.KernelIdeal Cert.KernelIdeal.Gen Cert.KernelIdeal.ChunkLoop Cert.KernelIdeal.PointStep Cert.MaskedProduct
open Idealize.ShloMosaic Idealize.ShloMosaic.TcCoe Idealize.ShloMosaic.ValueIdx Idealize.ShloMosaic.Tactic Idealize.SL.Sem

theorem zeros2 : (![0, 0] : Fin 2 → ℕ) = fun _ => 0 := by
  funext a; match a with | ⟨0, _⟩ => rfl | ⟨1, _⟩ => rfl

/-- A load of a whole block whose raw contents read `x` reads `x`. -/
theorem readAt_whole_unread {d : Fin 2 → ℕ} {e : EltTy} (M : Memref sig .tc .vmem ⟨2, d⟩ e) (hM : M.IsWhole)
    (inb : ∀ a, (![0, 0] : Fin 2 → ℕ) a + (⟨2, d⟩ : Shape).size a ≤ (⟨2, d⟩ : Shape).size a) (x : (⟨2, d⟩ : Shape).Idx → Elt Ideal e) :
    View.readAt (Elt Ideal) M.view (Rect.unit (s := ⟨2, d⟩) ![0, 0] (⟨2, d⟩ : Shape).size inb).toLoadRect (hM.unread x) = x := by
  rw [View.readAt_eq_ld, hM.read_unread, View.ld_unit_zero zeros2]

/-- The zero fill reads zero everywhere. -/
theorem zeroFill_apply (y : S1024x32.Idx) : k0_pay1 (F := Ideal) y = 0 := by
  unfold k0_pay1
  rw [shapeCast_self]
  exact Ideal.ofBits_zero_f32

section
variable (c : Dev nD) (i : grid0.Coords) (arg2 : Memref sig .tc .vmem S1024x2048 .f32) (harg2 : arg2.IsWhole) (arg3 : Memref sig .tc .vmem S1024x2048 .i32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x32 .f32) (harg6 : arg6.IsWhole)

/-- Case B: the accumulator after the point is one update of the accumulator before it. -/
theorem sout_B (hc0 : ¬cond0_0 i) (hc1 : ¬cond0_1 i) (x0 : Vec Ideal S1024x2048 .f32) (x1 : Vec Ideal S1024x2048 .i32) (x2 : Vec Ideal S2048x32 .f32) (xs0 : Vec Ideal S1024x32 .f32) :
    sout0_B_0 (F := Ideal) c i arg2 harg2 arg3 harg3 arg4 harg4 arg5 harg5 arg6 harg6 hc0 hc1 x0 x1 x2 xs0 = stepOut xs0 x0 x1 x2 := by
  unfold sout0_B_0
  rw [View.read_writes_of_cover VS0_0 VS0_0.junk arg6.view (harg6.unread xs0) _ (scover0_B_0 c i arg2 harg2 arg3 harg3 arg4 harg4 arg5 harg5 arg6 harg6 hc0 hc1 x0 x1 x2 xs0)]
  funext y
  obtain ⟨r, q, rfl⟩ : ∃ (r : Fin 1024) (q : Fin 32), y = ix2 r q := ⟨y 0, y 1, eq_ix2 y⟩
  unfold kernelRun0_B
  dsimp only
  refine (read_loop Variants.none c none i arg2 harg2 arg3 harg3 arg4 harg4 arg5 harg5 arg6 harg6 _ _ _ _ r q).trans ?_
  rw [harg6.read_unread, harg2.read_unread, harg3.read_unread, readAt_whole_unread arg4 harg4]

/-- Case C: the same for the accumulator, -/
theorem sout_C (hc0 : ¬cond0_0 i) (hc1 : cond0_1 i) (x0 : Vec Ideal S1024x2048 .f32) (x1 : Vec Ideal S1024x2048 .i32) (x2 : Vec Ideal S2048x32 .f32) (xs0 : Vec Ideal S1024x32 .f32) :
    sout0_C_0 (F := Ideal) c i arg2 harg2 arg3 harg3 arg4 harg4 arg5 harg5 arg6 harg6 hc0 hc1 x0 x1 x2 xs0 = stepOut xs0 x0 x1 x2 := by
  unfold sout0_C_0
  rw [View.read_writes_of_cover VS0_0 VS0_0.junk arg6.view (harg6.unread xs0) _ (scover0_C_0 c i arg2 harg2 arg3 harg3 arg4 harg4 arg5 harg5 arg6 harg6 hc0 hc1 x0 x1 x2 xs0)]
  funext y
  obtain ⟨r, q, rfl⟩ : ∃ (r : Fin 1024) (q : Fin 32), y = ix2 r q := ⟨y 0, y 1, eq_ix2 y⟩
  unfold kernelRun0_C
  dsimp only
  refine (read_loop Variants.none c none i arg2 harg2 arg3 harg3 arg4 harg4 arg5 harg5 arg6 harg6 _ _ _ _ r q).trans ?_
  rw [harg6.read_unread, harg2.read_unread, harg3.read_unread, readAt_whole_unread arg4 harg4]

/-- and the output block is that updated accumulator. -/
theorem out_C (hc0 : ¬cond0_0 i) (hc1 : cond0_1 i) (x0 : Vec Ideal S1024x2048 .f32) (x1 : Vec Ideal S1024x2048 .i32) (x2 : Vec Ideal S2048x32 .f32) (xs0 : Vec Ideal S1024x32 .f32) :
    out0_C_3 (F := Ideal) c i arg2 harg2 arg3 harg3 arg4 harg4 arg5 harg5 arg6 harg6 hc0 hc1 x0 x1 x2 xs0 = stepOut xs0 x0 x1 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_run_names
  rw [View.canon_unit_zero zeros2, View.readAt_eq_ld, View.ld_unit_zero zeros2]
  funext y
  obtain ⟨r, q, rfl⟩ : ∃ (r : Fin 1024) (q : Fin 32), y = ix2 r q := ⟨y 0, y 1, eq_ix2 y⟩
  refine (read_loop Variants.none c none i arg2 harg2 arg3 harg3 arg4 harg4 arg5 harg5 arg6 harg6 _ _ _ _ r q).trans ?_
  rw [harg6.read_unread, harg2.read_unread, harg3.read_unread, readAt_whole_unread arg4 harg4]

/-- Case A: the accumulator after the point is one update of zeros. -/
theorem sout_A (hc0 : cond0_0 i) (hc1 : ¬cond0_1 i) (x0 : Vec Ideal S1024x2048 .f32) (x1 : Vec Ideal S1024x2048 .i32) (x2 : Vec Ideal S2048x32 .f32) :
    sout0_A_0 (F := Ideal) c i arg2 harg2 arg3 harg3 arg4 harg4 arg5 harg5 arg6 harg6 hc0 hc1 x0 x1 x2 = stepOut (fun _ => 0) x0 x1 x2 := by
  unfold sout0_A_0
  rw [View.read_writes_of_cover VS0_0 VS0_0.junk arg6.view arg6.view.junk _ (scover0_A_0 c i arg2 harg2 arg3 harg3 arg4 harg4 arg5 harg5 arg6 harg6 hc0 hc1 x0 x1 x2)]
  funext y
  obtain ⟨r, q, rfl⟩ : ∃ (r : Fin 1024) (q : Fin 32), y = ix2 r q := ⟨y 0, y 1, eq_ix2 y⟩
  unfold kernelRun0_A
  dsimp only
  sl_unfold_run_names
  rw [View.writes_append]
  refine (read_loop Variants.none c none i arg2 harg2 arg3 harg3 arg4 harg4 arg5 harg5 arg6 harg6 _ _ _ _ r q).trans ?_
  rw [harg2.read_unread, harg3.read_unread, readAt_whole_unread arg4 harg4]
  refine congrArg (fun g => stepOut g x0 x1 x2 (ix2 r q)) (funext fun y => ?_)
  refine (View.read_writes_cons_rows_of_mem (Val := Elt Ideal) (o := 0) arg6.view arg6.view.junk inb_S1024x32_S1024x32_0_0
    (k0_pay1 (F := Ideal)) [] y y rfl (Nat.zero_add _).symm rfl).trans ?_
  exact zeroFill_apply y

end

end Cert.KernelIdeal.PointCases

end
-- ==== Proof.GridFold.lean ====
/-
  From grid points to the output array.

  The grid has 16 row blocks times 8 column blocks, the column block moving fastest: point `t` works on row block
  `t / 8` and column block `t % 8`. Its coefficient and mask blocks are rows `1024 (t / 8) + r`, columns
  `2048 (t % 8) + j` of the two square arrays, its block of `z` is rows `2048 (t % 8) + j`. Hence the update a point
  makes adds column block `t % 8`'s share of the result's rows, the accumulator after point `t` is the running total
  over column blocks `0 … t % 8`, and at the last column block — the only points whose output block is written back —
  the output block is rows `1024 (t / 8) + r` of the result. The sixteen written-back blocks tile the output array.
-/
import proofs.«141321_j15899968930166_2_alg».proof.Proof.Gen.KernelIdeal.Value
import proofs.«141321_j15899968930166_2_alg».proof.Proof.PointCases

set_option maxRecDepth 16384

noncomputable section

open scoped BigOperators

namespace Cert.KernelIdeal.GridFold

open Cert.KernelIdeal Cert.KernelIdeal.Gen Cert.KernelIdeal.Value Cert.KernelIdeal.PointStep Cert.KernelIdeal.PointCases Cert.MaskedProduct
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The coefficient array, the mask array and `z` as the region finds them. -/
abbrev coefA (c : Dev nD) : S16384x16384.Idx → EReal := V m c main_arg1
abbrev knnA (c : Dev nD) : S16384x16384.Idx → BitVec 32 := V m c main_arg2
abbrev zA (c : Dev nD) : S16384x32.Idx → EReal := V m c main_arg0

/-- The block index of each window at point `t`: row block `t / 8`, column block `t % 8`. -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- The output block is written back exactly at the last column block. -/
theorem flush_iff : ∀ t : Fin cfg0.N, (cfg0.win 3).flush t = true ↔ t.val % 8 = 7 :=
  (by decide +kernel : ∀ t : Fin grid0.N, _)

theorem lt_N (t : Fin cfg0.N) : t.val < 128 := lt_of_lt_of_eq t.isLt (show cfg0.N = 128 from N_0)

/-- The coefficient block at point `t`. -/
theorem blk0_apply (c : Dev nD) (t : Fin cfg0.N) (r : Fin 1024) (j : Fin 2048) :
    iblk m c 0 t (ix2 r j) = coefA m c (ix2 (rowOf (t.val / 8) r) (colOf (t.val % 8) j)) := by
  obtain ⟨e0, e1, -⟩ := idx_facts t
  have hN := lt_N t
  show V m c main_arg1 (((cfg0.win 0).blk t).view.emb (ix2 r j)) = _
  refine congrArg (V m c main_arg1) (funext fun a => Fin.ext ?_)
  match a with
  | ⟨0, _⟩ =>
    show win0_0.index t (0 : Fin 2) * 1024 + 1 * r.val = (rowOf (t.val / 8) r).val
    rw [rowOf_val _ (by omega) r, e0]; omega
  | ⟨1, _⟩ =>
    show win0_0.index t (1 : Fin 2) * 2048 + 1 * j.val = (colOf (t.val % 8) j).val
    rw [colOf_val _ (by omega) j, e1]; omega

/-- The mask block at point `t`. -/
theorem blk1_apply (c : Dev nD) (t : Fin cfg0.N) (r : Fin 1024) (j : Fin 2048) :
    iblk m c 1 t (ix2 r j) = knnA m c (ix2 (rowOf (t.val / 8) r) (colOf (t.val % 8) j)) := by
  obtain ⟨-, -, e0, e1, -⟩ := idx_facts t
  have hN := lt_N t
  show V m c main_arg2 (((cfg0.win 1).blk t).view.emb (ix2 r j)) = _
  refine congrArg (V m c main_arg2) (funext fun a => Fin.ext ?_)
  match a with
  | ⟨0, _⟩ =>
    show win0_1.index t (0 : Fin 2) * 1024 + 1 * r.val = (rowOf (t.val / 8) r).val
    rw [rowOf_val _ (by omega) r, e0]; omega
  | ⟨1, _⟩ =>
    show win0_1.index t (1 : Fin 2) * 2048 + 1 * j.val = (colOf (t.val % 8) j).val
    rw [colOf_val _ (by omega) j, e1]; omega

/-- The block of `z` at point `t`. -/
theorem blk2_apply (c : Dev nD) (t : Fin cfg0.N) (j : Fin 2048) (q : Fin 32) :
    iblk m c 2 t (ix2 j q) = zA m c (ix2 (colOf (t.val % 8) j) q) := by
  obtain ⟨-, -, -, -, e0, e1, -⟩ := idx_facts t
  have hN := lt_N t
  show V m c main_arg0 (((cfg0.win 2).blk t).view.emb (ix2 j q)) = _
  refine congrArg (V m c main_arg0) (funext fun a => Fin.ext ?_)
  match a with
  | ⟨0, _⟩ =>
    show win0_2.index t (0 : Fin 2) * 2048 + 1 * j.val = (colOf (t.val % 8) j).val
    rw [colOf_val _ (by omega) j, e0]; omega
  | ⟨1, _⟩ =>
    show win0_2.index t (1 : Fin 2) * 32 + 1 * q.val = q.val
    rw [e1]; omega

/-- The update at point `t` adds column block `t % 8`'s share of row block `t / 8`. -/
theorem step_at_point (c : Dev nD) (t : Fin cfg0.N) (acc : S1024x32.Idx → EReal) (r : Fin 1024) (q : Fin 32) :
    stepOut acc (iblk m c 0 t) (iblk m c 1 t) (iblk m c 2 t) (ix2 r q)
      = acc (ix2 r q) + blockTerm (coefA m c) (knnA m c) (zA m c) (t.val / 8) (t.val % 8) r q := by
  unfold stepOut blockTerm
  refine congrArg (acc (ix2 r q) + ·) (Finset.sum_congr rfl fun j _ => ?_)
  show gate (iblk m c 0 t (ix2 r j)) (iblk m c 1 t (ix2 r j)) * iblk m c 2 t (ix2 j q) = _
  rw [blk0_apply, blk1_apply, blk2_apply]

/-- THE ACCUMULATOR after point `n`: the running total over column blocks `0 … n % 8` of row block `n / 8`. -/
theorem acc_after (c : Dev nD) (n : ℕ) (h : n < cfg0.N) :
    (outsAt0 m c n h).2 = fun y => upTo (coefA m c) (knnA m c) (zA m c) (n / 8) (n % 8) (y 0) (y 1) := by
  induction n using Nat.strong_induction_on with
  | _ n ih =>
    have hN : n < 128 := lt_N ⟨n, h⟩
    by_cases h0 : n % 8 = 0
    · have h1 : ¬n % 8 = 7 := by omega
      rw [outsAt0_A m c ⟨n, h⟩ h0 h1]
      dsimp only
      rw [sout_A]
      funext y
      obtain ⟨r, q, rfl⟩ : ∃ (r : Fin 1024) (q : Fin 32), y = ix2 r q := ⟨y 0, y 1, eq_ix2 y⟩
      rw [step_at_point m c ⟨n, h⟩ (fun _ => 0) r q, zero_add]
      show blockTerm _ _ _ (n / 8) (n % 8) r q = upTo _ _ _ (n / 8) (n % 8) r q
      rw [h0, upTo_zero]
    · have hk : n % 8 = (n - 1) % 8 + 1 := by omega
      have hI : (n - 1) / 8 = n / 8 := by omega
      have hstep : ∀ y : S1024x32.Idx,
          stepOut (outsAt0 m c (n - 1) (Nat.lt_of_le_of_lt (Nat.sub_le _ _) h)).2 (iblk m c 0 ⟨n, h⟩) (iblk m c 1 ⟨n, h⟩) (iblk m c 2 ⟨n, h⟩) y
            = upTo (coefA m c) (knnA m c) (zA m c) (n / 8) (n % 8) (y 0) (y 1) := fun y => by
        obtain ⟨r, q, rfl⟩ : ∃ (r : Fin 1024) (q : Fin 32), y = ix2 r q := ⟨y 0, y 1, eq_ix2 y⟩
        rw [step_at_point m c ⟨n, h⟩ _ r q, ih (n - 1) (by omega) _]
        show upTo _ _ _ ((n - 1) / 8) ((n - 1) % 8) r q + blockTerm _ _ _ (n / 8) (n % 8) r q = upTo _ _ _ (n / 8) (n % 8) r q
        rw [hI, hk, upTo_succ]
      by_cases h1 : n % 8 = 7
      · rw [outsAt0_C m c ⟨n, h⟩ h0 h1]
        dsimp only
        rw [sout_C]
        exact funext hstep
      · rw [outsAt0_B m c ⟨n, h⟩ h0 h1]
        dsimp only
        rw [sout_B]
        exact funext hstep

/-- At a last column block the output block holds what the accumulator holds. -/
theorem out_eq_acc (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  rw [out_C, sout_C]

/-- An index of the output array lies in point `t`'s block iff each coordinate lies in the block's range. -/
theorem mem_blk3 (t : Fin cfg0.N) (i : S16384x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v0).slice (win0_3.rect t)).set ↔ _
  rw [View.set_slice_whole, Rect.mem_set_unit]
  exact Iff.rfl

/-- WHAT A WRITING POINT WRITES BACK: its block of the result. -/
theorem flushed_eq (c : Dev nD) (t : Fin cfg0.N) (hf : (cfg0.win 3).flush t = true) :
    (dats m 0 c).flushed 3 t = ((cfg0.win 3).blk t).view.read (Elt Ideal) (result (coefA m c) (knnA m c) (zA m c)) := by
  have h1 : t.val % 8 = 7 := (flush_iff t).mp hf
  have hN := lt_N t
  obtain ⟨-, -, -, -, -, -, e0, e1⟩ := idx_facts t
  rw [flushed3, out_eq_acc m c t h1, acc_after]
  funext y
  show upTo (coefA m c) (knnA m c) (zA m c) (t.val / 8) (t.val % 8) ((cfg0.win 3).xinj (grid0.coords t) y 0) ((cfg0.win 3).xinj (grid0.coords t) y 1)
    = result (coefA m c) (knnA m c) (zA m c) (((cfg0.win 3).blk t).view.emb y)
  rw [h1]
  refine (upTo_last (coefA m c) (knnA m c) (zA m c) (t.val / 8) ((cfg0.win 3).xinj (grid0.coords t) y 0)
    ((cfg0.win 3).xinj (grid0.coords t) y 1)).trans ?_
  refine congrArg (result (coefA m c) (knnA m c) (zA m c)) (funext fun a => Fin.ext ?_)
  match a with
  | ⟨0, _⟩ =>
    show (rowOf (t.val / 8) ((cfg0.win 3).xinj (grid0.coords t) y 0)).val = win0_3.index t (0 : Fin 2) * 1024 + 1 * (y 0).val
    refine (rowOf_val (t.val / 8) (by omega) _).trans ?_
    rw [e0]
    show 1024 * (t.val / 8) + (y 0).val = t.val / 8 * 1024 + 1 * (y 0).val
    omega
  | ⟨1, _⟩ =>
    show (y 1).val = win0_3.index t (1 : Fin 2) * 32 + 1 * (y 1).val
    rw [e1]; omega

/-- Every index of the output array is in the block some writing point writes back. -/
theorem cover (i : S16384x32.Idx) : ∃ t : Fin cfg0.N, (cfg0.win 3).flush t = true ∧ i ∈ ((cfg0.win 3).blk t).view.set := by
  have hi0 : (i 0).val < 16384 := (i 0).isLt
  have hi1 : (i 1).val < 32 := (i 1).isLt
  have hN : 8 * ((i 0).val / 1024) + 7 < cfg0.N := by rw [show cfg0.N = 128 from N_0]; omega
  refine ⟨⟨8 * ((i 0).val / 1024) + 7, hN⟩, (flush_iff _).mpr (by show (8 * ((i 0).val / 1024) + 7) % 8 = 7; omega), ?_⟩
  obtain ⟨-, -, -, -, -, -, e0, e1⟩ := idx_facts ⟨8 * ((i 0).val / 1024) + 7, hN⟩
  rw [mem_blk3]
  intro a
  match a with
  | ⟨0, _⟩ =>
    show win0_3.index _ (0 : Fin 2) * 1024 ≤ (i 0).val ∧ (i 0).val < win0_3.index _ (0 : Fin 2) * 1024 + 1024
    rw [e0]; show (8 * ((i 0).val / 1024) + 7) / 8 * 1024 ≤ (i 0).val ∧ (i 0).val < (8 * ((i 0).val / 1024) + 7) / 8 * 1024 + 1024
    omega
  | ⟨1, _⟩ =>
    show win0_3.index _ (1 : Fin 2) * 32 ≤ (i 1).val ∧ (i 1).val < win0_3.index _ (1 : Fin 2) * 32 + 32
    rw [e1]; omega

/-- THE OUTPUT ARRAY after the run is the result. -/
theorem final (c : Dev nD) : (dats m 0 c).arrAt 3 cfg0.N = result (coefA m c) (knnA m c) (zA m c) :=
  (dats m 0 c).arrAt_eq_of_cover 3 (result (coefA m c) (knnA m c) (zA m c)) (fun t hf => flushed_eq m c t hf) cover

/-- The run, read: the output array at the result of the argument arrays, the arguments unchanged. -/
theorem run : θ_run defs (onTc (τ := τ) (main (F := Ideal))) ⟨m, fun _ => 0, ρ⟩ fun r => ∀ c : Dev nD,
      r.2.mem ((c : Thread nD τ).loc main_v0) = result (coefA m c) (knnA m c) (zA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.GridFold

end
-- ==== Proof.RefSide.lean ====
/-
  The reference computes the result.

  The reference masks the coefficients (keep an entry whose mask word is positive, else zero), takes the larger of
  each masked entry and zero, and multiplies the resulting square array by `z` in one product: entry `(i, d)` is the
  sum over all 16384 columns `j` of the two-step gate of `(i, j)` times `z (j, d)`. The two-step gate is the fused
  gate, so this is the result entry by entry.
-/
import proofs.«141321_j15899968930166_2_alg».proof.Proof.Gen.ReferenceIdeal.Read
import proofs.«141321_j15899968930166_2_alg».proof.Proof.Spec

noncomputable section

open scoped BigOperators

namespace Cert.ReferenceIdeal.RefSide

open Cert.ReferenceIdeal Cert.ReferenceIdeal.Read Cert.MaskedProduct Idealize.ShloMosaic Idealize.ShloMosaic.ValueIdx

/-- The masked, rectified coefficient at an index is the two-step gate. -/
theorem rectified_apply (x1 : (⟨S16384x16384, .f32⟩ : BufTy).Contents (Elt Ideal)) (x2 : (⟨S16384x16384, .i32⟩ : BufTy).Contents (Elt Ideal))
    (i : S16384x16384.Idx) : val_main_v4 (F := Ideal) x1 x2 i = gateTwoStep (x1 i) (x2 i) := by
  rw [val_main_v4_apply, val_main_v2_apply, val_main_v1_apply, val_main_v0_apply, val_main_v3_apply, val_main_call0_v1_apply]
  show max (Scalar.select (IntOp.cmpi .sgt (x2 i) 0#32) (x1 i) (Ideal.ofBits .f32 0x00000000#32)) (Ideal.ofBits .f32 0x00000000#32) = _
  rw [Ideal.ofBits_zero_f32]
  rfl

/-- The reference's last stage is the result of its three arguments. -/
theorem stage_eq_result (x0 : (⟨S16384x32, .f32⟩ : BufTy).Contents (Elt Ideal)) (x1 : (⟨S16384x16384, .f32⟩ : BufTy).Contents (Elt Ideal))
    (x2 : (⟨S16384x16384, .i32⟩ : BufTy).Contents (Elt Ideal)) :
    val_main_v5 (F := Ideal) x0 x1 x2 = result x1 x2 x0 := by
  funext i
  obtain ⟨p, q, rfl⟩ : ∃ (p : Fin 16384) (q : Fin 32), i = ix2 p q := ⟨i 0, i 1, eq_ix2 i⟩
  rw [val_main_v5_apply, result_apply]
  refine Finset.sum_congr rfl fun k _ => ?_
  have el : lidx_main_v5 (ix2 p q) k = ix2 p k := funext fun a => Fin.ext (by match a with | ⟨0, _⟩ => rfl | ⟨1, _⟩ => rfl)
  have er : ridx_main_v5 (ix2 p q) k = ix2 k q := funext fun a => Fin.ext (by match a with | ⟨0, _⟩ => rfl | ⟨1, _⟩ => rfl)
  rw [el, er, rectified_apply, gate_eq_twoStep]

end Cert.ReferenceIdeal.RefSide

end
-- ==== Proof.lean ====
/-
  The kernel and its reference compute the same array: entry `(i, d)` of the result is the sum over `j < 16384` of
  `gate (Coefficient (i, j)) (knn (i, j)) · z (j, d)`, the gate keeping a coefficient that is positive and whose mask
  word is positive and giving zero otherwise.

  The reference masks, then takes the larger of each entry and zero, then forms one matrix product; the two-step gate
  is the fused gate (Spec.lean, RefSide.lean). The kernel walks a 16 × 8 grid of (row block, column block) pairs. At
  each pair a loop over eight chunks of 128 rows adds the gated coefficient block times the block of `z` onto a
  1024 × 32 accumulator (ChunkLoop.lean, PointStep.lean, PointCases.lean); the accumulator is zeroed at a row block's
  first column block and copied out at its last, so what is copied out is the sum over the eight column blocks of the
  block sums, which is the sum over all columns regrouped (GridFold.lean, Spec.lean). Regrouping a finite sum of
  extended reals needs only commutativity and associativity of addition, so the inputs' finiteness is never used. The
  exact instance reads the narrowing of the matrix unit's operands as the identity, and the idealization rewrote no
  operation, so its conjunct is trivial. The three frames are the generated frame proofs and the reference's run.
-/
import proofs.«141321_j15899968930166_2_alg».proof.Defs
import proofs.«141321_j15899968930166_2_alg».proof.Proof.Gen.Kernel
import proofs.«141321_j15899968930166_2_alg».proof.Proof.Gen.Kernel.Skeleton
import proofs.«141321_j15899968930166_2_alg».proof.Proof.Gen.Kernel.Loops
import proofs.«141321_j15899968930166_2_alg».proof.Proof.Gen.Kernel.Launch
import proofs.«141321_j15899968930166_2_alg».proof.Proof.Gen.Kernel.Points
import proofs.«141321_j15899968930166_2_alg».proof.Proof.Gen.Kernel.Frame
import proofs.«141321_j15899968930166_2_alg».proof.Proof.Gen.KernelIdeal
import proofs.«141321_j15899968930166_2_alg».proof.Proof.Gen.KernelIdeal.Skeleton
import proofs.«141321_j15899968930166_2_alg».proof.Proof.Gen.KernelIdeal.Loops
import proofs.«141321_j15899968930166_2_alg».proof.Proof.Gen.KernelIdeal.Launch
import proofs.«141321_j15899968930166_2_alg».proof.Proof.Gen.KernelIdeal.Points
import proofs.«141321_j15899968930166_2_alg».proof.Proof.Gen.KernelIdeal.Frame
import proofs.«141321_j15899968930166_2_alg».proof.Proof.Gen.ReferenceIdeal
import proofs.«141321_j15899968930166_2_alg».proof.Proof.Gen.Pre_finite_inputs
import proofs.«141321_j15899968930166_2_alg».proof.Proof.Gen.KernelIdeal.Value
import proofs.«141321_j15899968930166_2_alg».proof.Proof.Gen.ReferenceIdeal.Run
import proofs.«141321_j15899968930166_2_alg».proof.Proof.Gen.ReferenceIdeal.Read
import proofs.«141321_j15899968930166_2_alg».proof.Proof.GridFold
import proofs.«141321_j15899968930166_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the exact instance. -/
theorem preserves : Cert.preserves_Kernel_KernelIdeal := trivial

/-- Run from memories that agree on the three arguments, the kernel's output array and the reference's result are
    both the result of those arguments. -/
theorem algebraic : Cert.algebraic_KernelIdeal_ReferenceIdeal := by
  intro m ρ m' ρ' _ hagree
  refine ⟨_, Cert.KernelIdeal.GridFold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefSide.stage_eq_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
